-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x32 .f32) (main_arg5 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩

abbrev nBuf : Space → Nat
  | .hbm => 98
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x1, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x32, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000, .f32⟩
  | .hbm, ⟨79, _⟩ => ⟨S800000, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x32, .f32⟩
  | .hbm, ⟨89, _⟩ => ⟨S800000x1, .f32⟩
  | .hbm, ⟨90, _⟩ => ⟨S800000x32, .f32⟩
  | .hbm, ⟨91, _⟩ => ⟨S800000x32, .f32⟩
  | .hbm, ⟨92, _⟩ => ⟨S_, .f32⟩
  | .hbm, ⟨93, _⟩ => ⟨S50000x32, .f32⟩
  | .hbm, ⟨94, _⟩ => ⟨S800000x1, .i32⟩
  | .hbm, ⟨95, _⟩ => ⟨S50000x32, .f32⟩
  | .hbm, ⟨96, _⟩ => ⟨S1x32, .f32⟩
  | .hbm, ⟨97, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S50000x32.size a
  hwx3_1 : ∀ i : grid3.Coords, EltTy.bits .f32 = 32 ∨ (Rect.block (s := S50000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S50000x32.size a
  hwx3_4 : ∀ i : grid3.Coords, EltTy.bits .f32 = 32 ∨ (Rect.block (s := S50000x32) S5000x32.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 121
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x32, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S800000x1, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x32, .f32⟩
  | .hbm, ⟨107, _⟩ => ⟨S800000x32, .f32⟩
  | .hbm, ⟨108, _⟩ => ⟨S800000x32, .f32⟩
  | .hbm, ⟨109, _⟩ => ⟨S_, .f32⟩
  | .hbm, ⟨110, _⟩ => ⟨S50000x32, .f32⟩
  | .hbm, ⟨111, _⟩ => ⟨S800000x1, .i32⟩
  | .hbm, ⟨112, _⟩ => ⟨S50000x32, .f32⟩
  | .hbm, ⟨113, _⟩ => ⟨S50000, .f32⟩
  | .hbm, ⟨114, _⟩ => ⟨S50000x1, .f32⟩
  | .hbm, ⟨115, _⟩ => ⟨S50000x32, .f32⟩
  | .hbm, ⟨116, _⟩ => ⟨S50000x32, .f32⟩
  | .hbm, ⟨117, _⟩ => ⟨S50000x32, .f32⟩
  | .hbm, ⟨118, _⟩ => ⟨S1x32, .f32⟩
  | .hbm, ⟨119, _⟩ => ⟨S50000x32, .f32⟩
  | .hbm, ⟨120, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KernelRun.lean ====
/-
  The idealized kernel's run with its result named. The program is four pipelined regions among three stretches of
  host operations; its buffers' contents at the seven segment boundaries are a fold from the launch memory, and after
  the last region every unscoped buffer holds the last boundary's contents. The frame theorem reads only the six
  argument buffers off that final state; read here, beside them, is the result buffer.
-/
import proofs.«173764_j3375844294689_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched. -/
theorem run_result : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v74 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockValues.lean ====
/-
  The four kernel bodies at the extended reals, each read at a row and a column of its output block.

  A dense body multiplies a 5000-row block of its left operand by the whole weight matrix: at (r, q) it is the sum over
  the 64 inner positions k of left (r, k) * weight (k, q); the roundings of both operands on the way into the matrix
  unit are the identity at the extended reals, and the accumulator starts at zero.

  A combine body adds, entry by entry, the aggregated block, the projected block scaled row by row by a one-column
  block, and a one-row bias: at (r, q) it is (agg (r, q) + h (r, q) * scale (r, 0)) + bias (0, q); the first layer then
  takes the maximum with zero.
-/
import proofs.«173764_j3375844294689_1_alg».proof.Proof.Gen.KernelIdeal.Skeleton
import proofs.«173764_j3375844294689_1_alg».proof.Proof.LibDotIx2
import proofs.«173764_j3375844294689_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The first dense body's dimension numbers are those of a plain 5000 x 64 by 64 x 64 product. -/
theorem plainDot64 : PlainDot (M := 5000) (K := 64) (N := 64) dot_S5000x64_S64x64_S5000x64_1_0_0_1_n_n where
  rank := rfl
  size := rfl
  l0 j q := by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  l1 j q := dot_S5000x64_S64x64_S5000x64_1_0_0_1_n_n.lhsIdx_val_of_single rfl j q
  r0 j q := dot_S5000x64_S64x64_S5000x64_1_0_0_1_n_n.rhsIdx_val_of_single rfl j q
  r1 j q := by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The second dense body's dimension numbers are those of a plain 5000 x 64 by 64 x 32 product. -/
theorem plainDot32 : PlainDot (M := 5000) (K := 64) (N := 32) dot_S5000x64_S64x32_S5000x32_1_0_0_1_n_n where
  rank := rfl
  size := rfl
  l0 j q := by
    unfold DotDims.lhsIdx
    rw [dif_neg (show ¬(0 : Fin S5000x64.rank) ∈ dot_S5000x64_S64x32_S5000x32_1_0_0_1_n_n.lhsBatch by decide),
      dif_pos (show (0 : Fin S5000x64.rank) ∈ dot_S5000x64_S64x32_S5000x32_1_0_0_1_n_n.lhsNonContracting by decide)]
    rfl
  l1 j q := dot_S5000x64_S64x32_S5000x32_1_0_0_1_n_n.lhsIdx_val_of_single rfl j q
  r0 j q := dot_S5000x64_S64x32_S5000x32_1_0_0_1_n_n.rhsIdx_val_of_single rfl j q
  r1 j q := by
    unfold DotDims.rhsIdx
    rw [dif_neg (show ¬(1 : Fin S64x32.rank) ∈ dot_S5000x64_S64x32_S5000x32_1_0_0_1_n_n.rhsBatch by decide),
      dif_pos (show (1 : Fin S64x32.rank) ∈ dot_S5000x64_S64x32_S5000x32_1_0_0_1_n_n.rhsNonContracting by decide)]
    rfl

/-- The first dense body at (r, q): the row r of the block against the column q of the weights. -/
theorem denseBody64 (x0 : Vec Ideal S5000x64 .f32) (x1 : Vec Ideal S64x64 .f32) (r : Fin 5000) (q : Fin 64) :
    k0_pay1 (F := Ideal) x0 x1 (ix2 r q) = ∑ k : Fin 64, (x0 (ix2 r k) : EReal) * (x1 (ix2 k q) : EReal) := by
  unfold k0_pay1
  exact matmul_zero_ix2_any plainDot64 none (truncf .bf16 x0 bitsLt_bf16_f32) (truncf .bf16 x1 bitsLt_bf16_f32) r q

/-- The second dense body at (r, q): the same sum, against the 64 x 32 weights. -/
theorem denseBody32 (x0 : Vec Ideal S5000x64 .f32) (x3 : Vec Ideal S64x32 .f32) (r : Fin 5000) (q : Fin 32) :
    k2_pay1 (F := Ideal) x0 x3 (ix2 r q) = ∑ k : Fin 64, (x0 (ix2 r k) : EReal) * (x3 (ix2 k q) : EReal) := by
  unfold k2_pay1
  rw [shapeCast_self]
  exact matmul_zero_ix2_any plainDot32 none (truncf .bf16 x0 bitsLt_bf16_f32) (truncf .bf16 x3 bitsLt_bf16_f32) r q

/-- The first combine body at (r, q): aggregate plus scaled projection plus bias, then the maximum with zero. -/
theorem combineBody64 (v0 v2 : Vec Ideal S5000x64 .f32) (v4 : Vec Ideal S5000x1 .f32) (v9 : Vec Ideal S1x64 .f32)
    (r : Fin 5000) (q : Fin 64) :
    k1_pay1 (F := Ideal) v0 v2 v4 v9 (ix2 r q)
      = max (((v0 (ix2 r q) : EReal) + (v2 (ix2 r q) : EReal) * (v4 (ix2 r (0 : Fin 1)) : EReal)) + (v9 (ix2 (0 : Fin 1) q) : EReal))
          (Ideal.ofBits .f32 0x00000000#32) := by
  unfold k1_pay1
  simp only [shapeCast_self]
  show max ((v0 (ix2 r q) + v2 (ix2 r q) * broadcastTo S5000x64 v4 broadcasts_S5000x1_S5000x64 (ix2 r q))
      + broadcastTo S5000x64 v9 broadcasts_S1x64_S5000x64 (ix2 r q)) _ = _
  rw [broadcastTo_a1_ab_apply v4 broadcasts_S5000x1_S5000x64 r q, broadcastTo_1b_ab_apply v9 broadcasts_S1x64_S5000x64 r q]
  rfl

/-- The second combine body at (r, q): aggregate plus scaled projection plus bias. -/
theorem combineBody32 (v0 v2 : Vec Ideal S5000x32 .f32) (v4 : Vec Ideal S5000x1 .f32) (v9 : Vec Ideal S1x32 .f32)
    (r : Fin 5000) (q : Fin 32) :
    k3_pay1 (F := Ideal) v0 v2 v4 v9 (ix2 r q)
      = ((v0 (ix2 r q) : EReal) + (v2 (ix2 r q) : EReal) * (v4 (ix2 r (0 : Fin 1)) : EReal)) + (v9 (ix2 (0 : Fin 1) q) : EReal) := by
  unfold k3_pay1
  simp only [shapeCast_self]
  show (v0 (ix2 r q) + v2 (ix2 r q) * broadcastTo S5000x32 v4 broadcasts_S5000x1_S5000x32 (ix2 r q))
      + broadcastTo S5000x32 v9 broadcasts_S1x32_S5000x32 (ix2 r q) = _
  rw [broadcastTo_a1_ab_apply v4 broadcasts_S5000x1_S5000x32 r q, broadcastTo_1b_ab_apply v9 broadcasts_S1x32_S5000x32 r q]

end Cert.KernelIdeal.Hand

end
-- ==== Proof.GcnSpec.lean ====
/-
  The two per-layer maps of a graph-convolution layer, as whole-array functions over the extended reals.

  denseRows a w is the matrix product of the node features a (N rows of K) with the weights w (K x D): entry (r, q) is
  the sum over k of a (r, k) * w (k, q).

  combineRows agg h s b adds to the neighbourhood aggregate agg the node's own projection h scaled by the node's
  self-loop weight (the one column s) and the bias row b: entry (r, q) is (agg (r, q) + h (r, q) * s (r, 0)) + b (0, q).

  reluRows x is the entrywise maximum with the zero of the f32 format.
-/
import Idealize.ShloMosaic.PureOps.Ideal
import Idealize.ShloMosaic.Lib.ValueIdx

noncomputable section

open scoped BigOperators

namespace Cert.GcnSpec

open Idealize.ShloMosaic Idealize.ShloMosaic.ValueIdx

/-- Rows of `a` against the columns of `w`. -/
def denseRows {N K D : ℕ} (a : (⟨2, ![N, K]⟩ : Shape).Idx → EReal) (w : (⟨2, ![K, D]⟩ : Shape).Idx → EReal) :
    (⟨2, ![N, D]⟩ : Shape).Idx → EReal :=
  fun i => ∑ k : Fin K, a (ix2 (i 0) k) * w (ix2 k (i 1))

theorem denseRows_ix2 {N K D : ℕ} (a : (⟨2, ![N, K]⟩ : Shape).Idx → EReal) (w : (⟨2, ![K, D]⟩ : Shape).Idx → EReal)
    (r : Fin N) (q : Fin D) : denseRows a w (ix2 r q) = ∑ k : Fin K, a (ix2 r k) * w (ix2 k q) := rfl

/-- The aggregate, plus the own projection scaled row by row, plus the bias row. -/
def combineRows {N D : ℕ} (agg h : (⟨2, ![N, D]⟩ : Shape).Idx → EReal) (s : (⟨2, ![N, 1]⟩ : Shape).Idx → EReal)
    (b : (⟨2, ![1, D]⟩ : Shape).Idx → EReal) : (⟨2, ![N, D]⟩ : Shape).Idx → EReal :=
  fun i => (agg i + h i * s (ix2 (i 0) (0 : Fin 1))) + b (ix2 (0 : Fin 1) (i 1))

theorem combineRows_ix2 {N D : ℕ} (agg h : (⟨2, ![N, D]⟩ : Shape).Idx → EReal) (s : (⟨2, ![N, 1]⟩ : Shape).Idx → EReal)
    (b : (⟨2, ![1, D]⟩ : Shape).Idx → EReal) (r : Fin N) (q : Fin D) :
    combineRows agg h s b (ix2 r q) = (agg (ix2 r q) + h (ix2 r q) * s (ix2 r (0 : Fin 1))) + b (ix2 (0 : Fin 1) q) := rfl

/-- The entrywise maximum with zero. -/
def reluRows {S : Shape} (x : S.Idx → EReal) : S.Idx → EReal := fun i => max (x i) (Ideal.ofBits .f32 0x00000000#32)

theorem reluRows_apply {S : Shape} (x : S.Idx → EReal) (i : S.Idx) : reluRows x i = max (x i) (Ideal.ofBits .f32 0x00000000#32) := rfl

end Cert.GcnSpec

end
-- ==== Proof.Dense1.lean ====
/-
  The first dense region: the array its output window ends holding, for any contents `V` of the buffers at the
  region's entry. The grid's ten points each take a 5000-row block of the left operand and the whole weight matrix and
  write back the 5000-row block of the product; point t's blocks sit at rows 5000 t … 5000 t + 4999, so what it
  writes back is that block of the whole product, and the ten blocks cover the 50000 rows.
-/
import proofs.«173764_j3375844294689_1_alg».proof.Proof.Gen.KernelIdeal.Frame
import proofs.«173764_j3375844294689_1_alg».proof.Proof.BlockValues
import proofs.«173764_j3375844294689_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The three windows' block indices at point t: the row blocks move with t, the weights stay. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t holds rows 5000 t … of the array. -/
theorem leftBlock0_apply (c : Dev nD) (t : Fin cfg0.N) (x : S5000x64.Idx) (k : S50000x64.Idx)
    (hk0 : (k 0).val = 5000 * t.val + (x 0).val) (hk1 : (k 1).val = (x 1).val) :
    (iblk0 V c 0 t : Vec Ideal S5000x64 .f32) x = (V c main_arg0 : S50000x64.Idx → EReal) k := by
  obtain ⟨e0, e1, -⟩ := blockIdx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- The weights' block at every point is the whole matrix. -/
theorem weightBlock0_apply (c : Dev nD) (t : Fin cfg0.N) (x : S64x64.Idx) (k : S64x64.Idx)
    (hk0 : (k 0).val = (x 0).val) (hk1 : (k 1).val = (x 1).val) :
    (iblk0 V c 1 t : Vec Ideal S64x64 .f32) x = (V c main_arg2 : S64x64.Idx → EReal) k := by
  obtain ⟨-, -, e2, e3, -⟩ := blockIdx0 t
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * (x 0).val = (k 0).val; rw [e2, hk0]; omega
  | ⟨1, _⟩ => show win0_1.index t (1 : Fin 2) * 64 + 1 * (x 1).val = (k 1).val; rw [e3, hk1]; omega

/-- What point t writes back is block t of the whole product. -/
theorem flushed0_eq (c : Dev nD) (t : Fin cfg0.N) :
    (dat0 V c).flushed 2 t
      = ((cfg0.win 2).blk t).view.read (Elt Ideal) (denseRows (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x64) zeroOffsets0, View.ld_unit_zero (S := S64x64) zeroOffsets0]
  obtain ⟨-, -, -, -, e4, e5⟩ := blockIdx0 t
  funext j
  obtain ⟨r, q, rfl⟩ : ∃ (r : Fin 5000) (q : Fin 64), j = ix2 r q := ⟨j 0, j 1, eq_ix2 j⟩
  show k0_pay1 (iblk0 V c 0 t) (iblk0 V c 1 t) (ix2 r q)
    = denseRows (V c main_arg0) (V c main_arg2) (((cfg0.win 2).blk t).view.emb (ix2 r q))
  refine (denseBody64 (iblk0 V c 0 t) (iblk0 V c 1 t) r q).trans ?_
  unfold denseRows
  refine Finset.sum_congr rfl fun k _ => ?_
  refine congrArg₂ (fun (x y : EReal) => x * y) (leftBlock0_apply V c t _ _ ?_ ?_) (weightBlock0_apply V c t _ _ ?_ ?_)
  · show win0_2.index t (0 : Fin 2) * 5000 + 1 * r.val = 5000 * t.val + r.val
    rw [e4]; omega
  · rfl
  · rfl
  · show win0_2.index t (1 : Fin 2) * 64 + 1 * q.val = q.val
    rw [e5]; omega

/-- An index of the output array is in point t's block iff each coordinate is in the block's range on its axis. -/
theorem mem_block0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

/-- Every row is in the block of the point numbered by its row's quotient by 5000. -/
theorem covered0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; rw [hN]; omega⟩
  refine ⟨t, flush0_2 t, ?_⟩
  obtain ⟨-, -, -, -, e4, e5⟩ := blockIdx0 t
  rw [mem_block0]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 64 ≤ (i 1).val ∧ (i 1).val < win0_2.index t (1 : Fin 2) * 64 + 64
    rw [e5]; omega

/-- After the region the output array is the whole product of the two input arrays as the region found them. -/
theorem product0 (c : Dev nD) :
    (dat0 V c).arrAt 2 cfg0.N = denseRows (V c main_arg0) (V c main_arg2) :=
  (dat0 V c).arrAt_eq_of_cover 2 (denseRows (V c main_arg0) (V c main_arg2)) (fun t _ => flushed0_eq V c t) covered0

end Cert.KernelIdeal.Hand

end
-- ==== Proof.Combine1.lean ====
/-
  The first combine region: the array its output window ends holding, for any contents `V` of the buffers at the
  region's entry. Each of the grid's ten points takes the 5000-row blocks of the aggregate, of the projection and of the
  one-column scale, and the whole bias row, and writes back the 5000-row block of
  (aggregate + projection * scale) + bias, cut below at zero; point t's blocks sit at rows 5000 t … 5000 t + 4999, so what it writes
  back is that block of the whole-array combination, and the ten blocks cover the 50000 rows.
-/
import proofs.«173764_j3375844294689_1_alg».proof.Proof.Gen.KernelIdeal.Frame
import proofs.«173764_j3375844294689_1_alg».proof.Proof.BlockValues
import proofs.«173764_j3375844294689_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The five windows' block indices at point t: the row blocks move with t, the bias row stays. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t holds rows 5000 t … of the array. -/
theorem aggBlock1_apply (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v41 : S50000x64.Idx → EReal) k := by
  obtain ⟨e00, e01, e10, e11, e20, e21, e30, e31, e40, e41⟩ := blockIdx1 t
  unfold iblk1
  rw [View.read_apply]
  show V c main_v41 _ = V c main_v41 _
  refine congrArg (V c main_v41) (funext fun a => Fin.ext ?_)
  match a with
  | ⟨0, _⟩ => show win1_0.index t (0 : Fin 2) * 5000 + 1 * (x 0).val = (k 0).val; rw [e00, hk0]; omega
  | ⟨1, _⟩ => show win1_0.index t (1 : Fin 2) * 64 + 1 * (x 1).val = (k 1).val; rw [e01, hk1]; omega

/-- The projection's block at point t holds rows 5000 t … of the array. -/
theorem ownBlock1_apply (c : Dev nD) (t : Fin cfg1.N) (x : S5000x64.Idx) (k : S50000x64.Idx)
    (hk0 : (k 0).val = 5000 * t.val + (x 0).val) (hk1 : (k 1).val = (x 1).val) :
    (iblk1 V c 1 t : Vec Ideal S5000x64 .f32) x = (V c main_v13 : S50000x64.Idx → EReal) k := by
  obtain ⟨e00, e01, e10, e11, e20, e21, e30, e31, e40, e41⟩ := blockIdx1 t
  unfold iblk1
  rw [View.read_apply]
  show V c main_v13 _ = V c main_v13 _
  refine congrArg (V c main_v13) (funext fun a => Fin.ext ?_)
  match a with
  | ⟨0, _⟩ => show win1_1.index t (0 : Fin 2) * 5000 + 1 * (x 0).val = (k 0).val; rw [e10, hk0]; omega
  | ⟨1, _⟩ => show win1_1.index t (1 : Fin 2) * 64 + 1 * (x 1).val = (k 1).val; rw [e11, hk1]; omega

/-- The scale column's block at point t holds rows 5000 t … of the column. -/
theorem scaleBlock1_apply (c : Dev nD) (t : Fin cfg1.N) (x : S5000x1.Idx) (k : S50000x1.Idx)
    (hk0 : (k 0).val = 5000 * t.val + (x 0).val) (hk1 : (k 1).val = (x 1).val) :
    (iblk1 V c 2 t : Vec Ideal S5000x1 .f32) x = (V c main_v12 : S50000x1.Idx → EReal) k := by
  obtain ⟨e00, e01, e10, e11, e20, e21, e30, e31, e40, e41⟩ := blockIdx1 t
  unfold iblk1
  rw [View.read_apply]
  show V c main_v12 _ = V c main_v12 _
  refine congrArg (V c main_v12) (funext fun a => Fin.ext ?_)
  match a with
  | ⟨0, _⟩ => show win1_2.index t (0 : Fin 2) * 5000 + 1 * (x 0).val = (k 0).val; rw [e20, hk0]; omega
  | ⟨1, _⟩ => show win1_2.index t (1 : Fin 2) * 1 + 1 * (x 1).val = (k 1).val; rw [e21, hk1]; omega

/-- The bias row's block at every point is the whole row. -/
theorem biasBlock1_apply (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v42 : S1x64.Idx → EReal) k := by
  obtain ⟨e00, e01, e10, e11, e20, e21, e30, e31, e40, e41⟩ := blockIdx1 t
  unfold iblk1
  rw [View.read_apply]
  show V c main_v42 _ = V c main_v42 _
  refine congrArg (V c main_v42) (funext fun a => Fin.ext ?_)
  match a with
  | ⟨0, _⟩ => show win1_3.index t (0 : Fin 2) * 1 + 1 * (x 0).val = (k 0).val; rw [e30, hk0]; omega
  | ⟨1, _⟩ => show win1_3.index t (1 : Fin 2) * 64 + 1 * (x 1).val = (k 1).val; rw [e31, hk1]; omega

/-- What point t writes back is block t of the whole-array combination. -/
theorem flushed1_eq (c : Dev nD) (t : Fin cfg1.N) :
    (dat1 V c).flushed 4 t
      = ((cfg1.win 4).blk t).view.read (Elt Ideal) (reluRows (combineRows (V c main_v41) (V c main_v13) (V c main_v12) (V c main_v42))) := by
  show (cfg1.win 4).cut (grid1.coords t) ((dat1 V c).after 4 t) = _
  rw [after1_4]
  unfold out1_4
  rw [View.canon_unit_zero zeroOffsets1]
  simp only [View.ld_unit_zero (S := S5000x64) zeroOffsets1, View.ld_unit_zero (S := S5000x1) zeroOffsets1, View.ld_unit_zero (S := S1x64) zeroOffsets1]
  obtain ⟨e00, e01, e10, e11, e20, e21, e30, e31, e40, e41⟩ := blockIdx1 t
  funext j
  obtain ⟨r, q, rfl⟩ : ∃ (r : Fin 5000) (q : Fin 64), j = ix2 r q := ⟨j 0, j 1, eq_ix2 j⟩
  show k1_pay1 (iblk1 V c 0 t) (iblk1 V c 1 t) (iblk1 V c 2 t) (iblk1 V c 3 t) (ix2 r q)
    = (reluRows (combineRows (V c main_v41) (V c main_v13) (V c main_v12) (V c main_v42))) (((cfg1.win 4).blk t).view.emb (ix2 r q))
  refine (combineBody64 (iblk1 V c 0 t) (iblk1 V c 1 t) (iblk1 V c 2 t) (iblk1 V c 3 t) r q).trans ?_
  unfold reluRows combineRows
  refine congrArg (fun x : EReal => max x (Ideal.ofBits .f32 0x00000000#32)) ?_
  refine congrArg₂ (fun (x y : EReal) => x + y)
    (congrArg₂ (fun (x y : EReal) => x + y) (aggBlock1_apply V c t _ _ ?_ ?_)
      (congrArg₂ (fun (x y : EReal) => x * y) (ownBlock1_apply V c t _ _ ?_ ?_) (scaleBlock1_apply V c t _ _ ?_ ?_)))
    (biasBlock1_apply V c t _ _ ?_ ?_)
  · show win1_4.index t (0 : Fin 2) * 5000 + 1 * r.val = 5000 * t.val + r.val
    rw [e40]; omega
  · show win1_4.index t (1 : Fin 2) * 64 + 1 * q.val = q.val
    rw [e41]; omega
  · show win1_4.index t (0 : Fin 2) * 5000 + 1 * r.val = 5000 * t.val + r.val
    rw [e40]; omega
  · show win1_4.index t (1 : Fin 2) * 64 + 1 * q.val = q.val
    rw [e41]; omega
  · show win1_4.index t (0 : Fin 2) * 5000 + 1 * r.val = 5000 * t.val + r.val
    rw [e40]; omega
  · rfl
  · rfl
  · show win1_4.index t (1 : Fin 2) * 64 + 1 * q.val = q.val
    rw [e41]; omega

/-- An index of the output array is in point t's block iff each coordinate is in the block's range on its axis. -/
theorem mem_block1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Every row is in the block of the point numbered by its row's quotient by 5000. -/
theorem covered1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  refine ⟨t, flush1_4 t, ?_⟩
  obtain ⟨-, -, -, -, -, -, -, -, e40, e41⟩ := blockIdx1 t
  rw [mem_block1]
  intro a
  match a with
  | ⟨0, _⟩ =>
    show win1_4.index t (0 : Fin 2) * 5000 ≤ (i 0).val ∧ (i 0).val < win1_4.index t (0 : Fin 2) * 5000 + 5000
    rw [e40]; show (i 0).val / 5000 * 5000 ≤ (i 0).val ∧ (i 0).val < (i 0).val / 5000 * 5000 + 5000; omega
  | ⟨1, _⟩ =>
    show win1_4.index t (1 : Fin 2) * 64 ≤ (i 1).val ∧ (i 1).val < win1_4.index t (1 : Fin 2) * 64 + 64
    rw [e41]; omega

/-- After the region the output array is the whole-array combination of the four input arrays as the region found them. -/
theorem combined1 (c : Dev nD) :
    (dat1 V c).arrAt 4 cfg1.N = reluRows (combineRows (V c main_v41) (V c main_v13) (V c main_v12) (V c main_v42)) :=
  (dat1 V c).arrAt_eq_of_cover 4 (reluRows (combineRows (V c main_v41) (V c main_v13) (V c main_v12) (V c main_v42))) (fun t _ => flushed1_eq V c t) covered1

end Cert.KernelIdeal.Hand

end
-- ==== Proof.Dense2.lean ====
/-
  The second dense region: the array its output window ends holding, for any contents `V` of the buffers at the
  region's entry. The grid's ten points each take a 5000-row block of the left operand and the whole weight matrix and
  write back the 5000-row block of the product; point t's blocks sit at rows 5000 t … 5000 t + 4999, so what it
  writes back is that block of the whole product, and the ten blocks cover the 50000 rows.
-/
import proofs.«173764_j3375844294689_1_alg».proof.Proof.Gen.KernelIdeal.Frame
import proofs.«173764_j3375844294689_1_alg».proof.Proof.BlockValues
import proofs.«173764_j3375844294689_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The three windows' block indices at point t: the row blocks move with t, the weights stay. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t holds rows 5000 t … of the array. -/
theorem leftBlock2_apply (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c main_v43 : S50000x64.Idx → EReal) k := by
  obtain ⟨e0, e1, -⟩ := blockIdx2 t
  unfold iblk2
  rw [View.read_apply]
  show V c main_v43 _ = V c main_v43 _
  refine congrArg (V c main_v43) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 64 + 1 * (x 1).val = (k 1).val; rw [e1, hk1]; omega

/-- The weights' block at every point is the whole matrix. -/
theorem weightBlock2_apply (c : Dev nD) (t : Fin cfg2.N) (x : S64x32.Idx) (k : S64x32.Idx)
    (hk0 : (k 0).val = (x 0).val) (hk1 : (k 1).val = (x 1).val) :
    (iblk2 V c 1 t : Vec Ideal S64x32 .f32) x = (V c main_arg4 : S64x32.Idx → EReal) k := by
  obtain ⟨-, -, e2, e3, -⟩ := blockIdx2 t
  unfold iblk2
  rw [View.read_apply]
  show V c main_arg4 _ = V c main_arg4 _
  refine congrArg (V c main_arg4) (funext fun a => Fin.ext ?_)
  match a with
  | ⟨0, _⟩ => show win2_1.index t (0 : Fin 2) * 64 + 1 * (x 0).val = (k 0).val; rw [e2, hk0]; omega
  | ⟨1, _⟩ => show win2_1.index t (1 : Fin 2) * 32 + 1 * (x 1).val = (k 1).val; rw [e3, hk1]; omega

/-- What point t writes back is block t of the whole product. -/
theorem flushed2_eq (c : Dev nD) (t : Fin cfg2.N) :
    (dat2 V c).flushed 2 t
      = ((cfg2.win 2).blk t).view.read (Elt Ideal) (denseRows (V c main_v43) (V c main_arg4)) := by
  show (cfg2.win 2).cut (grid2.coords t) ((dat2 V c).after 2 t) = _
  rw [after2_2]
  unfold out2_2
  rw [View.canon_unit_zero zeroOffsets2]
  simp only [View.ld_unit_zero (S := S5000x64) zeroOffsets2, View.ld_unit_zero (S := S64x32) zeroOffsets2]
  obtain ⟨-, -, -, -, e4, e5⟩ := blockIdx2 t
  funext j
  obtain ⟨r, q, rfl⟩ : ∃ (r : Fin 5000) (q : Fin 32), j = ix2 r q := ⟨j 0, j 1, eq_ix2 j⟩
  show k2_pay1 (iblk2 V c 0 t) (iblk2 V c 1 t) (ix2 r q)
    = denseRows (V c main_v43) (V c main_arg4) (((cfg2.win 2).blk t).view.emb (ix2 r q))
  refine (denseBody32 (iblk2 V c 0 t) (iblk2 V c 1 t) r q).trans ?_
  unfold denseRows
  refine Finset.sum_congr rfl fun k _ => ?_
  refine congrArg₂ (fun (x y : EReal) => x * y) (leftBlock2_apply V c t _ _ ?_ ?_) (weightBlock2_apply V c t _ _ ?_ ?_)
  · show win2_2.index t (0 : Fin 2) * 5000 + 1 * r.val = 5000 * t.val + r.val
    rw [e4]; omega
  · rfl
  · rfl
  · show win2_2.index t (1 : Fin 2) * 32 + 1 * q.val = q.val
    rw [e5]; omega

/-- An index of the output array is in point t's block iff each coordinate is in the block's range on its axis. -/
theorem mem_block2 (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v44).slice (win2_2.rect t)).set ↔ _
  rw [View.set_slice_whole, Rect.mem_set_unit]
  exact Iff.rfl

/-- Every row is in the block of the point numbered by its row's quotient by 5000. -/
theorem covered2 (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : grid2.N = 10 := N_2
  let t : Fin cfg2.N := ⟨(i 0).val / 5000, by show (i 0).val / 5000 < grid2.N; rw [hN]; omega⟩
  refine ⟨t, flush2_2 t, ?_⟩
  obtain ⟨-, -, -, -, e4, e5⟩ := blockIdx2 t
  rw [mem_block2]
  intro a
  match a with
  | ⟨0, _⟩ =>
    show win2_2.index t (0 : Fin 2) * 5000 ≤ (i 0).val ∧ (i 0).val < win2_2.index t (0 : Fin 2) * 5000 + 5000
    rw [e4]; show (i 0).val / 5000 * 5000 ≤ (i 0).val ∧ (i 0).val < (i 0).val / 5000 * 5000 + 5000; omega
  | ⟨1, _⟩ =>
    show win2_2.index t (1 : Fin 2) * 32 ≤ (i 1).val ∧ (i 1).val < win2_2.index t (1 : Fin 2) * 32 + 32
    rw [e5]; omega

/-- After the region the output array is the whole product of the two input arrays as the region found them. -/
theorem product2 (c : Dev nD) :
    (dat2 V c).arrAt 2 cfg2.N = denseRows (V c main_v43) (V c main_arg4) :=
  (dat2 V c).arrAt_eq_of_cover 2 (denseRows (V c main_v43) (V c main_arg4)) (fun t _ => flushed2_eq V c t) covered2

end Cert.KernelIdeal.Hand

end
-- ==== Proof.Combine2.lean ====
/-
  The second combine region: the array its output window ends holding, for any contents `V` of the buffers at the
  region's entry. Each of the grid's ten points takes the 5000-row blocks of the aggregate, of the projection and of the
  one-column scale, and the whole bias row, and writes back the 5000-row block of
  (aggregate + projection * scale) + bias; point t's blocks sit at rows 5000 t … 5000 t + 4999, so what it writes
  back is that block of the whole-array combination, and the ten blocks cover the 50000 rows.
-/
import proofs.«173764_j3375844294689_1_alg».proof.Proof.Gen.KernelIdeal.Frame
import proofs.«173764_j3375844294689_1_alg».proof.Proof.BlockValues
import proofs.«173764_j3375844294689_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The five windows' block indices at point t: the row blocks move with t, the bias row stays. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t holds rows 5000 t … of the array. -/
theorem aggBlock3_apply (c : Dev nD) (t : Fin cfg3.N) (x : S5000x32.Idx) (k : S50000x32.Idx)
    (hk0 : (k 0).val = 5000 * t.val + (x 0).val) (hk1 : (k 1).val = (x 1).val) :
    (iblk3 V c 0 t : Vec Ideal S5000x32 .f32) x = (V c main_v72 : S50000x32.Idx → EReal) k := by
  obtain ⟨e00, e01, e10, e11, e20, e21, e30, e31, e40, e41⟩ := blockIdx3 t
  unfold iblk3
  rw [View.read_apply]
  show V c main_v72 _ = V c main_v72 _
  refine congrArg (V c main_v72) (funext fun a => Fin.ext ?_)
  match a with
  | ⟨0, _⟩ => show win3_0.index t (0 : Fin 2) * 5000 + 1 * (x 0).val = (k 0).val; rw [e00, hk0]; omega
  | ⟨1, _⟩ => show win3_0.index t (1 : Fin 2) * 32 + 1 * (x 1).val = (k 1).val; rw [e01, hk1]; omega

/-- The projection's block at point t holds rows 5000 t … of the array. -/
theorem ownBlock3_apply (c : Dev nD) (t : Fin cfg3.N) (x : S5000x32.Idx) (k : S50000x32.Idx)
    (hk0 : (k 0).val = 5000 * t.val + (x 0).val) (hk1 : (k 1).val = (x 1).val) :
    (iblk3 V c 1 t : Vec Ideal S5000x32 .f32) x = (V c main_v44 : S50000x32.Idx → EReal) k := by
  obtain ⟨e00, e01, e10, e11, e20, e21, e30, e31, e40, e41⟩ := blockIdx3 t
  unfold iblk3
  rw [View.read_apply]
  show V c main_v44 _ = V c main_v44 _
  refine congrArg (V c main_v44) (funext fun a => Fin.ext ?_)
  match a with
  | ⟨0, _⟩ => show win3_1.index t (0 : Fin 2) * 5000 + 1 * (x 0).val = (k 0).val; rw [e10, hk0]; omega
  | ⟨1, _⟩ => show win3_1.index t (1 : Fin 2) * 32 + 1 * (x 1).val = (k 1).val; rw [e11, hk1]; omega

/-- The scale column's block at point t holds rows 5000 t … of the column. -/
theorem scaleBlock3_apply (c : Dev nD) (t : Fin cfg3.N) (x : S5000x1.Idx) (k : S50000x1.Idx)
    (hk0 : (k 0).val = 5000 * t.val + (x 0).val) (hk1 : (k 1).val = (x 1).val) :
    (iblk3 V c 2 t : Vec Ideal S5000x1 .f32) x = (V c main_v12 : S50000x1.Idx → EReal) k := by
  obtain ⟨e00, e01, e10, e11, e20, e21, e30, e31, e40, e41⟩ := blockIdx3 t
  unfold iblk3
  rw [View.read_apply]
  show V c main_v12 _ = V c main_v12 _
  refine congrArg (V c main_v12) (funext fun a => Fin.ext ?_)
  match a with
  | ⟨0, _⟩ => show win3_2.index t (0 : Fin 2) * 5000 + 1 * (x 0).val = (k 0).val; rw [e20, hk0]; omega
  | ⟨1, _⟩ => show win3_2.index t (1 : Fin 2) * 1 + 1 * (x 1).val = (k 1).val; rw [e21, hk1]; omega

/-- The bias row's block at every point is the whole row. -/
theorem biasBlock3_apply (c : Dev nD) (t : Fin cfg3.N) (x : S1x32.Idx) (k : S1x32.Idx)
    (hk0 : (k 0).val = (x 0).val) (hk1 : (k 1).val = (x 1).val) :
    (iblk3 V c 3 t : Vec Ideal S1x32 .f32) x = (V c main_v73 : S1x32.Idx → EReal) k := by
  obtain ⟨e00, e01, e10, e11, e20, e21, e30, e31, e40, e41⟩ := blockIdx3 t
  unfold iblk3
  rw [View.read_apply]
  show V c main_v73 _ = V c main_v73 _
  refine congrArg (V c main_v73) (funext fun a => Fin.ext ?_)
  match a with
  | ⟨0, _⟩ => show win3_3.index t (0 : Fin 2) * 1 + 1 * (x 0).val = (k 0).val; rw [e30, hk0]; omega
  | ⟨1, _⟩ => show win3_3.index t (1 : Fin 2) * 32 + 1 * (x 1).val = (k 1).val; rw [e31, hk1]; omega

/-- What point t writes back is block t of the whole-array combination. -/
theorem flushed3_eq (c : Dev nD) (t : Fin cfg3.N) :
    (dat3 V c).flushed 4 t
      = ((cfg3.win 4).blk t).view.read (Elt Ideal) (combineRows (V c main_v72) (V c main_v44) (V c main_v12) (V c main_v73)) := by
  show (cfg3.win 4).cut (grid3.coords t) ((dat3 V c).after 4 t) = _
  rw [after3_4]
  unfold out3_4
  rw [View.canon_unit_zero zeroOffsets3]
  simp only [View.ld_unit_zero (S := S5000x32) zeroOffsets3, View.ld_unit_zero (S := S5000x1) zeroOffsets3, View.ld_unit_zero (S := S1x32) zeroOffsets3]
  obtain ⟨e00, e01, e10, e11, e20, e21, e30, e31, e40, e41⟩ := blockIdx3 t
  funext j
  obtain ⟨r, q, rfl⟩ : ∃ (r : Fin 5000) (q : Fin 32), j = ix2 r q := ⟨j 0, j 1, eq_ix2 j⟩
  show k3_pay1 (iblk3 V c 0 t) (iblk3 V c 1 t) (iblk3 V c 2 t) (iblk3 V c 3 t) (ix2 r q)
    = (combineRows (V c main_v72) (V c main_v44) (V c main_v12) (V c main_v73)) (((cfg3.win 4).blk t).view.emb (ix2 r q))
  refine (combineBody32 (iblk3 V c 0 t) (iblk3 V c 1 t) (iblk3 V c 2 t) (iblk3 V c 3 t) r q).trans ?_
  unfold combineRows
  refine congrArg₂ (fun (x y : EReal) => x + y)
    (congrArg₂ (fun (x y : EReal) => x + y) (aggBlock3_apply V c t _ _ ?_ ?_)
      (congrArg₂ (fun (x y : EReal) => x * y) (ownBlock3_apply V c t _ _ ?_ ?_) (scaleBlock3_apply V c t _ _ ?_ ?_)))
    (biasBlock3_apply V c t _ _ ?_ ?_)
  · show win3_4.index t (0 : Fin 2) * 5000 + 1 * r.val = 5000 * t.val + r.val
    rw [e40]; omega
  · show win3_4.index t (1 : Fin 2) * 32 + 1 * q.val = q.val
    rw [e41]; omega
  · show win3_4.index t (0 : Fin 2) * 5000 + 1 * r.val = 5000 * t.val + r.val
    rw [e40]; omega
  · show win3_4.index t (1 : Fin 2) * 32 + 1 * q.val = q.val
    rw [e41]; omega
  · show win3_4.index t (0 : Fin 2) * 5000 + 1 * r.val = 5000 * t.val + r.val
    rw [e40]; omega
  · rfl
  · rfl
  · show win3_4.index t (1 : Fin 2) * 32 + 1 * q.val = q.val
    rw [e41]; omega

/-- An index of the output array is in point t's block iff each coordinate is in the block's range on its axis. -/
theorem mem_block3 (t : Fin cfg3.N) (i : S50000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v74).slice (win3_4.rect t)).set ↔ _
  rw [View.set_slice_whole, Rect.mem_set_unit]
  exact Iff.rfl

/-- Every row is in the block of the point numbered by its row's quotient by 5000. -/
theorem covered3 (i : S50000x32.Idx) :
    ∃ t : Fin cfg3.N, (cfg3.win 4).flush t = true ∧ i ∈ ((cfg3.win 4).blk t).view.set := by
  have hi0 : (i 0).val < 50000 := (i 0).isLt
  have hi1 : (i 1).val < 32 := (i 1).isLt
  have hN : grid3.N = 10 := N_3
  let t : Fin cfg3.N := ⟨(i 0).val / 5000, by show (i 0).val / 5000 < grid3.N; rw [hN]; omega⟩
  refine ⟨t, flush3_4 t, ?_⟩
  obtain ⟨-, -, -, -, -, -, -, -, e40, e41⟩ := blockIdx3 t
  rw [mem_block3]
  intro a
  match a with
  | ⟨0, _⟩ =>
    show win3_4.index t (0 : Fin 2) * 5000 ≤ (i 0).val ∧ (i 0).val < win3_4.index t (0 : Fin 2) * 5000 + 5000
    rw [e40]; show (i 0).val / 5000 * 5000 ≤ (i 0).val ∧ (i 0).val < (i 0).val / 5000 * 5000 + 5000; omega
  | ⟨1, _⟩ =>
    show win3_4.index t (1 : Fin 2) * 32 ≤ (i 1).val ∧ (i 1).val < win3_4.index t (1 : Fin 2) * 32 + 32
    rw [e41]; omega

/-- After the region the output array is the whole-array combination of the four input arrays as the region found them. -/
theorem combined3 (c : Dev nD) :
    (dat3 V c).arrAt 4 cfg3.N = combineRows (V c main_v72) (V c main_v44) (V c main_v12) (V c main_v73) :=
  (dat3 V c).arrAt_eq_of_cover 4 (combineRows (V c main_v72) (V c main_v44) (V c main_v12) (V c main_v73)) (fun t _ => flushed3_eq V c t) covered3

end Cert.KernelIdeal.Hand

end
-- ==== Proof.HostStretches.lean ====
/-
  The three stretches of host operations of the idealized kernel's program, each read at the buffers the regions take,
  over ANY contents `W` of the buffers when the stretch begins.

  The first stretch splits the edge list into its sources and its destinations, counts every node's incoming edges
  plus one, takes the inverse square root, and lays the square of that out as a column. The second and the third
  stretch weight every edge by the product of its two endpoints' inverse square roots, gather the projected rows at
  the edges' sources, scale them and add them up at the edges' destinations, and lay the bias out as a row. The
  reference program applies the very same operations to the same values, so each result is the reference's own
  intermediate value once the stretch's inputs are: the two composed terms are one term.
-/
import proofs.«173764_j3375844294689_1_alg».proof.Proof.Gen.KernelIdeal.Launch
import proofs.«173764_j3375844294689_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v11 val_main_v4 val_main_v39 val_main_v49 val_main_v84)

variable (W : Valuation τ sig (Elt Ideal))
variable (x0 : (⟨Cert.ReferenceIdeal.S50000x64, .f32⟩ : BufTy).Contents (Elt Ideal)) (x1 : (⟨Cert.ReferenceIdeal.S2x800000, .i32⟩ : BufTy).Contents (Elt Ideal))
  (x2 : (⟨Cert.ReferenceIdeal.S64x64, .f32⟩ : BufTy).Contents (Elt Ideal)) (x3 : (⟨Cert.ReferenceIdeal.S64, .f32⟩ : BufTy).Contents (Elt Ideal))
  (x4 : (⟨Cert.ReferenceIdeal.S64x32, .f32⟩ : BufTy).Contents (Elt Ideal)) (x5 : (⟨Cert.ReferenceIdeal.S32, .f32⟩ : BufTy).Contents (Elt Ideal))

/-- The square of the nodes' inverse square roots, laid out as a column. -/
def selfCol : FVec Ideal S50000x1 .f32 :=
  shapeCast S50000x1 (mulf (val_main_v11 (F := Ideal) x1 : FVec Ideal S50000 .f32) (val_main_v11 (F := Ideal) x1 : FVec Ideal S50000 .f32)) shapeCasts_S50000_S50000x1

/-- The first layer's bias laid out as a row. -/
def biasRow64 : FVec Ideal S1x64 .f32 := shapeCast S1x64 (x3 : FVec Ideal S64 .f32) shapeCasts_S64_S1x64

/-- The second layer's bias laid out as a row. -/
def biasRow32 : FVec Ideal S1x32 .f32 := shapeCast S1x32 (x5 : FVec Ideal S32 .f32) shapeCasts_S32_S1x32

/-! ## Before the first region -/

theorem stretch0_sources (h : W (Proc.devRef .tc main_arg1) = x1) :
    StableHlo.after (hostOps0 (F := Ideal)) W (Proc.devRef .tc main_v1) = val_main_v1 (F := Ideal) x1 := by
  after_results_simp
  rw [h]
  rfl

theorem stretch0_destinations (h : W (Proc.devRef .tc main_arg1) = x1) :
    StableHlo.after (hostOps0 (F := Ideal)) W (Proc.devRef .tc main_v3) = val_main_v3 (F := Ideal) x1 := by
  after_results_simp
  rw [h]
  rfl

theorem stretch0_invSqrtDeg (h : W (Proc.devRef .tc main_arg1) = x1) :
    StableHlo.after (hostOps0 (F := Ideal)) W (Proc.devRef .tc main_v10) = val_main_v11 (F := Ideal) x1 := by
  after_results_simp
  rw [h]
  rfl

theorem stretch0_selfCol (h : W (Proc.devRef .tc main_arg1) = x1) :
    StableHlo.after (hostOps0 (F := Ideal)) W (Proc.devRef .tc main_v12) = selfCol x1 := by
  after_results_simp
  rw [h]
  rfl

theorem stretch0_keep_main_arg0 : StableHlo.after (hostOps0 (F := Ideal)) W (Proc.devRef .tc main_arg0) = W (Proc.devRef .tc main_arg0) := by
  after_results_simp

theorem stretch0_keep_main_arg2 : StableHlo.after (hostOps0 (F := Ideal)) W (Proc.devRef .tc main_arg2) = W (Proc.devRef .tc main_arg2) := by
  after_results_simp

theorem stretch0_keep_main_arg3 : StableHlo.after (hostOps0 (F := Ideal)) W (Proc.devRef .tc main_arg3) = W (Proc.devRef .tc main_arg3) := by
  after_results_simp

theorem stretch0_keep_main_arg4 : StableHlo.after (hostOps0 (F := Ideal)) W (Proc.devRef .tc main_arg4) = W (Proc.devRef .tc main_arg4) := by
  after_results_simp

theorem stretch0_keep_main_arg5 : StableHlo.after (hostOps0 (F := Ideal)) W (Proc.devRef .tc main_arg5) = W (Proc.devRef .tc main_arg5) := by
  after_results_simp

/-! ## Between the first dense region and the first combine region -/

set_option maxHeartbeats 4000000 in
theorem stretch1_aggregate
    (h1 : W (Proc.devRef .tc main_v1) = val_main_v1 (F := Ideal) x1)
    (h3 : W (Proc.devRef .tc main_v3) = val_main_v3 (F := Ideal) x1)
    (h10 : W (Proc.devRef .tc main_v10) = val_main_v11 (F := Ideal) x1)
    (h13 : W (Proc.devRef .tc main_v13) = val_main_v4 (F := Ideal) x0 x2) :
    StableHlo.after (hostOps1 (F := Ideal)) W (Proc.devRef .tc main_v41) = val_main_v39 (F := Ideal) x0 x1 x2 := by
  after_results_simp
  rw [h1, h3, h10, h13]
  rfl

theorem stretch1_biasRow (h : W (Proc.devRef .tc main_arg3) = x3) :
    StableHlo.after (hostOps1 (F := Ideal)) W (Proc.devRef .tc main_v42) = biasRow64 x3 := by
  after_results_simp
  rw [h]
  rfl

theorem stretch1_keep_main_arg4 : StableHlo.after (hostOps1 (F := Ideal)) W (Proc.devRef .tc main_arg4) = W (Proc.devRef .tc main_arg4) := by
  after_results_simp

theorem stretch1_keep_main_arg5 : StableHlo.after (hostOps1 (F := Ideal)) W (Proc.devRef .tc main_arg5) = W (Proc.devRef .tc main_arg5) := by
  after_results_simp

theorem stretch1_keep_main_v1 : StableHlo.after (hostOps1 (F := Ideal)) W (Proc.devRef .tc main_v1) = W (Proc.devRef .tc main_v1) := by
  after_results_simp

theorem stretch1_keep_main_v3 : StableHlo.after (hostOps1 (F := Ideal)) W (Proc.devRef .tc main_v3) = W (Proc.devRef .tc main_v3) := by
  after_results_simp

theorem stretch1_keep_main_v10 : StableHlo.after (hostOps1 (F := Ideal)) W (Proc.devRef .tc main_v10) = W (Proc.devRef .tc main_v10) := by
  after_results_simp

theorem stretch1_keep_main_v12 : StableHlo.after (hostOps1 (F := Ideal)) W (Proc.devRef .tc main_v12) = W (Proc.devRef .tc main_v12) := by
  after_results_simp

theorem stretch1_keep_main_v13 : StableHlo.after (hostOps1 (F := Ideal)) W (Proc.devRef .tc main_v13) = W (Proc.devRef .tc main_v13) := by
  after_results_simp

/-! ## Between the second dense region and the second combine region -/

set_option maxHeartbeats 4000000 in
theorem stretch3_aggregate
    (h1 : W (Proc.devRef .tc main_v1) = val_main_v1 (F := Ideal) x1)
    (h3 : W (Proc.devRef .tc main_v3) = val_main_v3 (F := Ideal) x1)
    (h10 : W (Proc.devRef .tc main_v10) = val_main_v11 (F := Ideal) x1)
    (h44 : W (Proc.devRef .tc main_v44) = val_main_v49 (F := Ideal) x0 x1 x2 x3 x4) :
    StableHlo.after (hostOps3 (F := Ideal)) W (Proc.devRef .tc main_v72) = val_main_v84 (F := Ideal) x0 x1 x2 x3 x4 := by
  after_results_simp
  rw [h1, h3, h10, h44]
  rfl

theorem stretch3_biasRow (h : W (Proc.devRef .tc main_arg5) = x5) :
    StableHlo.after (hostOps3 (F := Ideal)) W (Proc.devRef .tc main_v73) = biasRow32 x5 := by
  after_results_simp
  rw [h]
  rfl

theorem stretch3_keep_main_v12 : StableHlo.after (hostOps3 (F := Ideal)) W (Proc.devRef .tc main_v12) = W (Proc.devRef .tc main_v12) := by
  after_results_simp

theorem stretch3_keep_main_v44 : StableHlo.after (hostOps3 (F := Ideal)) W (Proc.devRef .tc main_v44) = W (Proc.devRef .tc main_v44) := by
  after_results_simp

end Cert.KernelIdeal.Hand

end
-- ==== Proof.RefBridge.lean ====
/-
  The reference's two layers, read index by index, are the whole-array maps of the specification.

  Its dense products are denseRows of their operands. Its first layer's sum — the aggregate, plus the projection times
  the squared inverse square roots broadcast along the rows, plus the bias broadcast down the rows — followed by the
  maximum with zero, is reluRows of combineRows of the same four arrays, the scale read from ANY column array that holds
  the squared inverse square roots and the bias from ANY row array that holds the bias; its second layer's sum is
  combineRows likewise. The reference computes the inverse square roots a second time for the second layer, from the
  same edge list by the same operations: the same array.
-/
import proofs.«173764_j3375844294689_1_alg».proof.Proof.Gen.ReferenceIdeal.Read
import proofs.«173764_j3375844294689_1_alg».proof.Proof.GcnSpec
import Idealize.ShloMosaic.Lib.ValueIdx

noncomputable section

open scoped BigOperators

namespace Cert.ReferenceIdeal.Hand

open Cert.ReferenceIdeal Cert.ReferenceIdeal.Read Cert.GcnSpec
open Idealize.ShloMosaic Idealize.ShloMosaic.ValueIdx

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-- The first dense product is the rows of the features against the columns of the first weights. -/
theorem dense1_eq : val_main_v4 (F := Ideal) x0 x2 = denseRows x0 x2 := by
  funext i
  obtain ⟨r, q, rfl⟩ : ∃ (r : Fin 50000) (q : Fin 64), i = ix2 r q := ⟨i 0, i 1, eq_ix2 i⟩
  rw [val_main_v4_apply, denseRows_ix2]
  refine Finset.sum_congr rfl fun k _ => ?_
  have el : lidx_main_v4 (ix2 r q) k = ix2 r k := funext fun a => Fin.ext (by match a with | ⟨0, _⟩ => rfl | ⟨1, _⟩ => rfl)
  have er : ridx_main_v4 (ix2 r q) k = ix2 k q := funext fun a => Fin.ext (by match a with | ⟨0, _⟩ => rfl | ⟨1, _⟩ => rfl)
  rw [el, er]

/-- The second dense product is the rows of the first layer's output against the columns of the second weights. -/
theorem dense2_eq : val_main_v49 (F := Ideal) x0 x1 x2 x3 x4 = denseRows (val_main_v48 (F := Ideal) x0 x1 x2 x3) x4 := by
  funext i
  obtain ⟨r, q, rfl⟩ : ∃ (r : Fin 50000) (q : Fin 32), i = ix2 r q := ⟨i 0, i 1, eq_ix2 i⟩
  rw [val_main_v49_apply, denseRows_ix2]
  refine Finset.sum_congr rfl fun k _ => ?_
  have el : lidx_main_v49 (ix2 r q) k = ix2 r k := funext fun a => Fin.ext (by match a with | ⟨0, _⟩ => rfl | ⟨1, _⟩ => rfl)
  have er : ridx_main_v49 (ix2 r q) k = ix2 k q := funext fun a => Fin.ext (by match a with | ⟨0, _⟩ => rfl | ⟨1, _⟩ => rfl)
  rw [el, er]

/-- The inverse square roots the second layer recomputes are the first layer's. -/
theorem invSqrtDeg_again : val_main_v56 (F := Ideal) x1 = val_main_v11 (F := Ideal) x1 := rfl

/-- The first layer: aggregate plus scaled projection plus bias, then the maximum with zero. -/
theorem layer1_eq (s : (⟨2, ![50000, 1]⟩ : Shape).Idx → EReal) (b : (⟨2, ![1, 64]⟩ : Shape).Idx → EReal)
    (hs : ∀ r : Fin 50000, s (ix2 r (0 : Fin 1)) = val_main_v11 (F := Ideal) x1 (ix1 r) * val_main_v11 (F := Ideal) x1 (ix1 r))
    (hb : ∀ q : Fin 64, b (ix2 (0 : Fin 1) q) = x3 (ix1 q)) :
    reluRows (combineRows (val_main_v39 (F := Ideal) x0 x1 x2) (val_main_v4 (F := Ideal) x0 x2) s b)
      = val_main_v48 (F := Ideal) x0 x1 x2 x3 := by
  funext i
  obtain ⟨r, q, rfl⟩ : ∃ (r : Fin 50000) (q : Fin 64), i = ix2 r q := ⟨i 0, i 1, eq_ix2 i⟩
  rw [reluRows_apply, combineRows_ix2, hs r, hb q]
  rw [val_main_v48_apply, val_main_v47_apply, val_main_v44_apply, val_main_v43_apply, val_main_v42_apply, val_main_v41_apply,
    val_main_v40_apply, val_main_v46_apply, val_main_v45_apply, val_main_call0_v0_apply, val_main_call0_cst_apply]
  have e1 : idx_main_v41 (idx_main_v42 (ix2 r q)) = ix1 r := funext fun a => Fin.ext (by match a with | ⟨0, _⟩ => rfl)
  have e2 : idx_main_v45 (idx_main_v46 (ix2 r q)) = ix1 q := funext fun a => Fin.ext (by match a with | ⟨0, _⟩ => rfl)
  rw [e1, e2]
  rfl

/-- The second layer: aggregate plus scaled projection plus bias. -/
theorem layer2_eq (s : (⟨2, ![50000, 1]⟩ : Shape).Idx → EReal) (b : (⟨2, ![1, 32]⟩ : Shape).Idx → EReal)
    (hs : ∀ r : Fin 50000, s (ix2 r (0 : Fin 1)) = val_main_v11 (F := Ideal) x1 (ix1 r) * val_main_v11 (F := Ideal) x1 (ix1 r))
    (hb : ∀ q : Fin 32, b (ix2 (0 : Fin 1) q) = x5 (ix1 q)) :
    combineRows (val_main_v84 (F := Ideal) x0 x1 x2 x3 x4) (val_main_v49 (F := Ideal) x0 x1 x2 x3 x4) s b
      = val_main_v92 (F := Ideal) x0 x1 x2 x3 x4 x5 := by
  funext i
  obtain ⟨r, q, rfl⟩ : ∃ (r : Fin 50000) (q : Fin 32), i = ix2 r q := ⟨i 0, i 1, eq_ix2 i⟩
  rw [combineRows_ix2, hs r, hb q]
  rw [val_main_v92_apply, val_main_v89_apply, val_main_v88_apply, val_main_v87_apply, val_main_v86_apply,
    val_main_v85_apply, val_main_v91_apply, val_main_v90_apply, invSqrtDeg_again]
  have e1 : idx_main_v86 (idx_main_v87 (ix2 r q)) = ix1 r := funext fun a => Fin.ext (by match a with | ⟨0, _⟩ => rfl)
  have e2 : idx_main_v90 (idx_main_v91 (ix2 r q)) = ix1 q := funext fun a => Fin.ext (by match a with | ⟨0, _⟩ => rfl)
  rw [e1, e2]
  rfl

end Cert.ReferenceIdeal.Hand

end
-- ==== Proof.Chain.lean ====
/-
  The idealized kernel's result, boundary by boundary. The program's seven segments — a stretch of host operations, the
  first dense region, a stretch, the first combine region, the second dense region, a stretch, the second combine
  region — are followed from the launch memory; at each boundary the buffers the later segments read hold the
  reference's own intermediate values of the six arguments:

    after the first stretch    the edges' sources and destinations, the nodes' inverse square roots of their degrees,
                               the squares of those as a column;
    after the first region     the first projection x · W1;
    after the second stretch   the first layer's neighbourhood aggregate, the bias as a row;
    after the second region    the first layer's output max((agg + h · s) + b, 0);
    after the third region     the second projection;
    after the third stretch    the second layer's aggregate, the second bias as a row;
    after the last region      the second layer's output (agg + h · s) + b, the program's result.

  A region's output array is the whole-array map of its input arrays (the four region modules); a stretch's results are
  the reference's terms (the stretches' module); a buffer no segment in between writes keeps its contents.
-/
import proofs.«173764_j3375844294689_1_alg».proof.Proof.Gen.KernelIdeal.Frame
import proofs.«173764_j3375844294689_1_alg».proof.Proof.Dense1
import proofs.«173764_j3375844294689_1_alg».proof.Proof.Combine1
import proofs.«173764_j3375844294689_1_alg».proof.Proof.Dense2
import proofs.«173764_j3375844294689_1_alg».proof.Proof.Combine2
import proofs.«173764_j3375844294689_1_alg».proof.Proof.HostStretches
import proofs.«173764_j3375844294689_1_alg».proof.Proof.RefBridge
import proofs.«173764_j3375844294689_1_alg».proof.Proof.LibKeepdims
import Idealize.ShloMosaic.Lib.ValueLayout

set_option maxRecDepth 16384

noncomputable section

namespace Cert.KernelIdeal.Hand

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)
open Cert.ReferenceIdeal.Read (val_main_v1 val_main_v3 val_main_v11 val_main_v4 val_main_v39 val_main_v48 val_main_v49 val_main_v84 val_main_v92)

variable (m : (ℓ : Loc nD τ sig) → Buf (Elt Ideal) ℓ) (ρ : Dev nD → PrngReg) (c : Dev nD)

/-- The node features. -/
abbrev feat : Buf (Elt Ideal) ((c : Thread nD τ).loc main_arg0) := m ((c : Thread nD τ).loc main_arg0)
/-- The edge list: sources in its first row, destinations in its second. -/
abbrev edges : Buf (Elt Ideal) ((c : Thread nD τ).loc main_arg1) := m ((c : Thread nD τ).loc main_arg1)
/-- The first layer's weights. -/
abbrev w1 : Buf (Elt Ideal) ((c : Thread nD τ).loc main_arg2) := m ((c : Thread nD τ).loc main_arg2)
/-- The first layer's bias. -/
abbrev bias1 : Buf (Elt Ideal) ((c : Thread nD τ).loc main_arg3) := m ((c : Thread nD τ).loc main_arg3)
/-- The second layer's weights. -/
abbrev w2 : Buf (Elt Ideal) ((c : Thread nD τ).loc main_arg4) := m ((c : Thread nD τ).loc main_arg4)
/-- The second layer's bias. -/
abbrev bias2 : Buf (Elt Ideal) ((c : Thread nD τ).loc main_arg5) := m ((c : Thread nD τ).loc main_arg5)

/-! ## The two layouts the regions read -/

/-- A vector times itself, laid out as a column, at row r. -/
theorem squareCol_apply (d : FVec Ideal S50000 .f32) (h : S50000.ShapeCasts S50000x1) (r : Fin 50000) :
    shapeCast S50000x1 (mulf d d) h (ix2 r (0 : Fin 1)) = d (ix1 r) * d (ix1 r) := by
  rw [shapeCast_a_a1_apply]
  exact mulf_apply d d (ix1 r)

/-- The column of squares, at row r. -/
theorem selfCol_apply (x1 : (⟨Cert.ReferenceIdeal.S2x800000, .i32⟩ : BufTy).Contents (Elt Ideal)) (r : Fin 50000) :
    selfCol x1 (ix2 r (0 : Fin 1)) = val_main_v11 (F := Ideal) x1 (ix1 r) * val_main_v11 (F := Ideal) x1 (ix1 r) := by
  unfold selfCol
  exact squareCol_apply _ _ r

/-- The first bias row, at column q. -/
theorem biasRow64_apply (x3 : (⟨Cert.ReferenceIdeal.S64, .f32⟩ : BufTy).Contents (Elt Ideal)) (q : Fin 64) :
    biasRow64 x3 (ix2 (0 : Fin 1) q) = x3 (ix1 q) := by
  unfold biasRow64
  rw [shapeCast_a_1a_apply]

/-- The second bias row, at column q. -/
theorem biasRow32_apply (x5 : (⟨Cert.ReferenceIdeal.S32, .f32⟩ : BufTy).Contents (Elt Ideal)) (q : Fin 32) :
    biasRow32 x5 (ix2 (0 : Fin 1) q) = x5 (ix1 q) := by
  unfold biasRow32
  rw [shapeCast_a_1a_apply]

/-! ## What every later segment needs of the edge list, and the second bias -/

/-- The edge data at a boundary's contents `W`: sources, destinations, inverse square roots, their squares as a
    column, and the second layer's bias, each as the reference computes it from the arguments. -/
structure EdgeData (W : Valuation τ sig (Elt Ideal)) : Prop where
  src : W (Proc.devRef .tc main_v1) = val_main_v1 (F := Ideal) (edges m c)
  dst : W (Proc.devRef .tc main_v3) = val_main_v3 (F := Ideal) (edges m c)
  dinv : W (Proc.devRef .tc main_v10) = val_main_v11 (F := Ideal) (edges m c)
  col : W (Proc.devRef .tc main_v12) = selfCol (edges m c)
  b2 : W (Proc.devRef .tc main_arg5) = bias2 m c

theorem edgeData1 : EdgeData m c (W1 m ρ c) where
  src := stretch0_sources (W0 m ρ c) (edges m c) rfl
  dst := stretch0_destinations (W0 m ρ c) (edges m c) rfl
  dinv := stretch0_invSqrtDeg (W0 m ρ c) (edges m c) rfl
  col := stretch0_selfCol (W0 m ρ c) (edges m c) rfl
  b2 := stretch0_keep_main_arg5 (W0 m ρ c)

theorem edgeData2 : EdgeData m c (W2 m ρ c) where
  src := (W2_of_ne m ρ c main_v1 (by decide)).trans (edgeData1 m ρ c).src
  dst := (W2_of_ne m ρ c main_v3 (by decide)).trans (edgeData1 m ρ c).dst
  dinv := (W2_of_ne m ρ c main_v10 (by decide)).trans (edgeData1 m ρ c).dinv
  col := (W2_of_ne m ρ c main_v12 (by decide)).trans (edgeData1 m ρ c).col
  b2 := (W2_of_ne m ρ c main_arg5 (by decide)).trans (edgeData1 m ρ c).b2

theorem edgeData3 : EdgeData m c (W3 m ρ c) where
  src := (stretch1_keep_main_v1 (W2 m ρ c)).trans (edgeData2 m ρ c).src
  dst := (stretch1_keep_main_v3 (W2 m ρ c)).trans (edgeData2 m ρ c).dst
  dinv := (stretch1_keep_main_v10 (W2 m ρ c)).trans (edgeData2 m ρ c).dinv
  col := (stretch1_keep_main_v12 (W2 m ρ c)).trans (edgeData2 m ρ c).col
  b2 := (stretch1_keep_main_arg5 (W2 m ρ c)).trans (edgeData2 m ρ c).b2

theorem edgeData4 : EdgeData m c (W4 m ρ c) where
  src := (W4_of_ne m ρ c main_v1 (by decide)).trans (edgeData3 m ρ c).src
  dst := (W4_of_ne m ρ c main_v3 (by decide)).trans (edgeData3 m ρ c).dst
  dinv := (W4_of_ne m ρ c main_v10 (by decide)).trans (edgeData3 m ρ c).dinv
  col := (W4_arr m ρ c 2).trans ((((dat1 (V3 m ρ) c).arrAt_in 2 rfl _).trans (A_eq1 (V3 m ρ) c 2)).trans (edgeData3 m ρ c).col)
  b2 := (W4_of_ne m ρ c main_arg5 (by decide)).trans (edgeData3 m ρ c).b2

theorem edgeData5 : EdgeData m c (W5 m ρ c) where
  src := (W5_of_ne m ρ c main_v1 (by decide)).trans (edgeData4 m ρ c).src
  dst := (W5_of_ne m ρ c main_v3 (by decide)).trans (edgeData4 m ρ c).dst
  dinv := (W5_of_ne m ρ c main_v10 (by decide)).trans (edgeData4 m ρ c).dinv
  col := (W5_of_ne m ρ c main_v12 (by decide)).trans (edgeData4 m ρ c).col
  b2 := (W5_of_ne m ρ c main_arg5 (by decide)).trans (edgeData4 m ρ c).b2

/-! ## The first layer -/

/-- The first bias reaches the second stretch as launched. -/
theorem at2_bias1 : W2 m ρ c (Proc.devRef .tc main_arg3) = bias1 m c :=
  (W2_of_ne m ρ c main_arg3 (by decide)).trans (stretch0_keep_main_arg3 (W0 m ρ c))

/-- The second weights reach the second dense region as launched. -/
theorem at4_w2 : W4 m ρ c (Proc.devRef .tc main_arg4) = w2 m c :=
  (W4_of_ne m ρ c main_arg4 (by decide)).trans ((stretch1_keep_main_arg4 (W2 m ρ c)).trans
    ((W2_of_ne m ρ c main_arg4 (by decide)).trans (stretch0_keep_main_arg4 (W0 m ρ c))))

/-- After the first region: the first projection. -/
theorem at2_proj1 : W2 m ρ c (Proc.devRef .tc main_v13) = val_main_v4 (F := Ideal) (feat m c) (w1 m c) := by
  refine (W2_arr m ρ c 2).trans ((product0 (V1 m ρ) c).trans ?_)
  have h0 : V1 m ρ c main_arg0 = feat m c := stretch0_keep_main_arg0 (W0 m ρ c)
  have h2 : V1 m ρ c main_arg2 = w1 m c := stretch0_keep_main_arg2 (W0 m ρ c)
  rw [h0, h2]
  exact (Cert.ReferenceIdeal.Hand.dense1_eq _ _).symm

/-- After the second stretch: the first layer's aggregate, the projection still there, the bias as a row. -/
theorem at3_agg1 : W3 m ρ c (Proc.devRef .tc main_v41) = val_main_v39 (F := Ideal) (feat m c) (edges m c) (w1 m c) :=
  stretch1_aggregate (W2 m ρ c) _ _ _ (edgeData2 m ρ c).src (edgeData2 m ρ c).dst (edgeData2 m ρ c).dinv (at2_proj1 m ρ c)

theorem at3_proj1 : W3 m ρ c (Proc.devRef .tc main_v13) = val_main_v4 (F := Ideal) (feat m c) (w1 m c) :=
  (stretch1_keep_main_v13 (W2 m ρ c)).trans (at2_proj1 m ρ c)

theorem at3_bias1 : W3 m ρ c (Proc.devRef .tc main_v42) = biasRow64 (bias1 m c) :=
  stretch1_biasRow (W2 m ρ c) _ (at2_bias1 m ρ c)

/-- After the second region: the first layer's output. -/
theorem at4_hidden : W4 m ρ c (Proc.devRef .tc main_v43) = val_main_v48 (F := Ideal) (feat m c) (edges m c) (w1 m c) (bias1 m c) := by
  refine (W4_arr m ρ c 4).trans ((combined1 (V3 m ρ) c).trans ?_)
  have h41 : V3 m ρ c main_v41 = _ := at3_agg1 m ρ c
  have h13 : V3 m ρ c main_v13 = _ := at3_proj1 m ρ c
  have h12 : V3 m ρ c main_v12 = _ := (edgeData3 m ρ c).col
  have h42 : V3 m ρ c main_v42 = _ := at3_bias1 m ρ c
  rw [h41, h13, h12, h42]
  exact Cert.ReferenceIdeal.Hand.layer1_eq _ _ _ _ _ _ (selfCol_apply _) (biasRow64_apply _)

/-! ## The second layer -/

/-- After the third region: the second projection. -/
theorem at5_proj2 : W5 m ρ c (Proc.devRef .tc main_v44) = val_main_v49 (F := Ideal) (feat m c) (edges m c) (w1 m c) (bias1 m c) (w2 m c) := by
  refine (W5_arr m ρ c 2).trans ((product2 (V4 m ρ) c).trans ?_)
  have h43 : V4 m ρ c main_v43 = _ := at4_hidden m ρ c
  have h4 : V4 m ρ c main_arg4 = _ := at4_w2 m ρ c
  rw [h43, h4]
  exact (Cert.ReferenceIdeal.Hand.dense2_eq _ _ _ _ _).symm

/-- After the third stretch: the second layer's aggregate, the projection and the column still there, the bias as a row. -/
theorem at6_agg2 : W6 m ρ c (Proc.devRef .tc main_v72) = val_main_v84 (F := Ideal) (feat m c) (edges m c) (w1 m c) (bias1 m c) (w2 m c) :=
  stretch3_aggregate (W5 m ρ c) _ _ _ _ _ (edgeData5 m ρ c).src (edgeData5 m ρ c).dst (edgeData5 m ρ c).dinv (at5_proj2 m ρ c)

theorem at6_proj2 : W6 m ρ c (Proc.devRef .tc main_v44) = val_main_v49 (F := Ideal) (feat m c) (edges m c) (w1 m c) (bias1 m c) (w2 m c) :=
  (stretch3_keep_main_v44 (W5 m ρ c)).trans (at5_proj2 m ρ c)

theorem at6_col : W6 m ρ c (Proc.devRef .tc main_v12) = selfCol (edges m c) :=
  (stretch3_keep_main_v12 (W5 m ρ c)).trans (edgeData5 m ρ c).col

theorem at6_bias2 : W6 m ρ c (Proc.devRef .tc main_v73) = biasRow32 (bias2 m c) :=
  stretch3_biasRow (W5 m ρ c) _ (edgeData5 m ρ c).b2

/-- After the last region: the result buffer holds the reference's result of the six arguments. -/
theorem result_eq : W7 m ρ c (Proc.devRef .tc main_v74)
    = val_main_v92 (F := Ideal) (feat m c) (edges m c) (w1 m c) (bias1 m c) (w2 m c) (bias2 m c) := by
  refine (W7_arr m ρ c 4).trans ((combined3 (V6 m ρ) c).trans ?_)
  have h72 : V6 m ρ c main_v72 = _ := at6_agg2 m ρ c
  have h44 : V6 m ρ c main_v44 = _ := at6_proj2 m ρ c
  have h12 : V6 m ρ c main_v12 = _ := at6_col m ρ c
  have h73 : V6 m ρ c main_v73 = _ := at6_bias2 m ρ c
  rw [h72, h44, h12, h73]
  exact Cert.ReferenceIdeal.Hand.layer2_eq _ _ _ _ _ _ _ _ (selfCol_apply _) (biasRow32_apply _)

end Cert.KernelIdeal.Hand

end
-- ==== Proof.lean ====
/-
  A two-layer graph convolution over 50000 nodes and 800000 edges: the kernel's program against its reference, equal
  over the extended reals.

  Each layer computes, for every node j,  out[j] = sum over edges i -> j of h[i] / sqrt(deg i · deg j) + h[j] / deg j + b
  with h = x · W and deg the in-degree plus one; the first layer is followed by the maximum with zero. The kernel's
  program runs the two dense products and the two entrywise combinations as pipelined regions over ten blocks of 5000
  rows, and the degree count, the edge weights, the gather and the scatter-add as host operations between them; the
  reference does all of it on the host. The host operations are the same operations on both sides, so the proof shows
  that each region's output array is the reference's own intermediate array: a dense region's blocks are the blocks of
  the whole matrix product (the roundings into the matrix unit are the identity at the extended reals, the accumulator
  starts at zero), and a combine region's blocks are the blocks of (aggregate + projection · scale) + bias, with the
  scale column and the bias row read where the reference broadcasts them. No law of arithmetic beyond that is needed,
  and the precondition is not used.

  The three frames are the generated ones (the reference's: its generated run with the result dropped); the ledger of
  rewrites is empty, so the kernel's idealization is its own text read at the extended reals.
-/
import proofs.«173764_j3375844294689_1_alg».proof.Defs
import proofs.«173764_j3375844294689_1_alg».proof.Proof.Gen.Kernel
import proofs.«173764_j3375844294689_1_alg».proof.Proof.Gen.Kernel.Skeleton
import proofs.«173764_j3375844294689_1_alg».proof.Proof.Gen.Kernel.Launch
import proofs.«173764_j3375844294689_1_alg».proof.Proof.Gen.Kernel.Points
import proofs.«173764_j3375844294689_1_alg».proof.Proof.Gen.Kernel.Frame
import proofs.«173764_j3375844294689_1_alg».proof.Proof.Gen.KernelIdeal
import proofs.«173764_j3375844294689_1_alg».proof.Proof.Gen.KernelIdeal.Skeleton
import proofs.«173764_j3375844294689_1_alg».proof.Proof.Gen.KernelIdeal.Launch
import proofs.«173764_j3375844294689_1_alg».proof.Proof.Gen.KernelIdeal.Points
import proofs.«173764_j3375844294689_1_alg».proof.Proof.Gen.KernelIdeal.Frame
import proofs.«173764_j3375844294689_1_alg».proof.Proof.Gen.ReferenceIdeal
import proofs.«173764_j3375844294689_1_alg».proof.Proof.Gen.Pre_finite_inputs
import proofs.«173764_j3375844294689_1_alg».proof.Proof.Gen.ReferenceIdeal.Run
import proofs.«173764_j3375844294689_1_alg».proof.Proof.Gen.ReferenceIdeal.Read
import proofs.«173764_j3375844294689_1_alg».proof.Proof.KernelRun
import proofs.«173764_j3375844294689_1_alg».proof.Proof.Chain
import Idealize.ShloMosaic.Adequacy
import Idealize.ShloMosaic.Init

noncomputable section

namespace Cert.Proof

open Idealize.ShloMosaic Idealize.ShloMosaic.TcCoe Idealize.SL.Sem

/-- The program as printed runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's composed value of the six arguments in their result buffers. -/
theorem algebraic : Cert.algebraic_KernelIdeal_ReferenceIdeal := by
  intro m ρ m' ρ' _ hagree
  refine ⟨fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v92_eq]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
